-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x64 : Shape := ⟨3, ![64, 2048, 64]⟩
abbrev S64x2048x2048 : Shape := ⟨3, ![64, 2048, 2048]⟩
abbrev S_ : Shape := ⟨0, ![]⟩

class Facts : Prop where
  bcast_S_S64x2048x64 : S_.BroadcastsInDim S64x2048x64 (![] : Fin 0 → Fin S64x2048x64.rank)
  reducesTo_S64x2048x64_S_d0_1_2 : S64x2048x64.ReducesTo [0, 1, 2] S_
  h_S_ : 0 < S_.numel

variable [Facts]

def fn {F : FTy → Type} [FloatOps F] (main_arg0 : FVec F S64x2048x64 .f32) (main_arg1 : FVec F S64x2048x64 .f32) (main_arg2 : FVec F S64x2048x64 .f32) (main_arg3 : IVec S64x2048x2048 1) : IVec S_ 1 :=
  let main_v0 : FVec F S64x2048x64 .f32 := Host.absf main_arg0
  let main_cst : FVec F S_ .f32 := constant S_ .f32 0x7F800000#32
  let main_v1 : FVec F S64x2048x64 .f32 := broadcastInDim S64x2048x64 ![] bcast_S_S64x2048x64 main_cst
  let main_v2 : IVec S64x2048x64 1 := cmpf .olt main_v0 main_v1
  let main_c : IVec S_ 1 := constantI S_ 1 1#1
  let main_v3 : IVec S_ 1 := (fun x v => Host.reduce IntOp.andi x v reducesTo_S64x2048x64_S_d0_1_2 h_S_) main_v2 main_c
  let main_v4 : FVec F S64x2048x64 .f32 := Host.absf main_arg1
  let main_cst_0 : FVec F S_ .f32 := constant S_ .f32 0x7F800000#32
  let main_v5 : FVec F S64x2048x64 .f32 := broadcastInDim S64x2048x64 ![] bcast_S_S64x2048x64 main_cst_0
  let main_v6 : IVec S64x2048x64 1 := cmpf .olt main_v4 main_v5
  let main_c_1 : IVec S_ 1 := constantI S_ 1 1#1
  let main_v7 : IVec S_ 1 := (fun x v => Host.reduce IntOp.andi x v reducesTo_S64x2048x64_S_d0_1_2 h_S_) main_v6 main_c_1
  let main_v8 : IVec S_ 1 := andi main_v3 main_v7
  let main_v9 : FVec F S64x2048x64 .f32 := Host.absf main_arg2
  let main_cst_2 : FVec F S_ .f32 := constant S_ .f32 0x7F800000#32
  let main_v10 : FVec F S64x2048x64 .f32 := broadcastInDim S64x2048x64 ![] bcast_S_S64x2048x64 main_cst_2
  let main_v11 : IVec S64x2048x64 1 := cmpf .olt main_v9 main_v10
  let main_c_3 : IVec S_ 1 := constantI S_ 1 1#1
  let main_v12 : IVec S_ 1 := (fun x v => Host.reduce IntOp.andi x v reducesTo_S64x2048x64_S_d0_1_2 h_S_) main_v11 main_c_3
  let main_v13 : IVec S_ 1 := andi main_v8 main_v12
  main_v13
-- ==== Kernel.lean ====
abbrev S64x2048x64 : Shape := ⟨3, ![64, 2048, 64]⟩
abbrev S64x2048x2048 : Shape := ⟨3, ![64, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S64x2048x64, .f32⟩
  | .hbm, ⟨1, _⟩ => ⟨S64x2048x64, .f32⟩
  | .hbm, ⟨2, _⟩ => ⟨S64x2048x64, .f32⟩
  | .hbm, ⟨3, _⟩ => ⟨S64x2048x2048, .i1⟩
  | .hbm, ⟨4, _⟩ => ⟨S64x2048x2048, .i32⟩
  | .hbm, ⟨5, _⟩ => ⟨S64x2048x64, .f32⟩
  | .hbm, ⟨6, _⟩ => ⟨S64x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .i32⟩
  | .local _ .vmem, ⟨7, _⟩ => ⟨S1x512x2048, .i32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S64x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S64x2048x2048.size a
  hwx0_3 : ∀ i : grid0.Coords, EltTy.bits .i32 = 32 ∨ (Rect.block (s := S64x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S64x2048x64.size a
  hwx0_4 : ∀ i : grid0.Coords, EltTy.bits .f32 = 32 ∨ (Rect.block (s := S64x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S64x2048x2048.size a
  hwx0_5 : ∀ i : grid0.Coords, EltTy.bits .f32 = 32 ∨ (Rect.block (s := S64x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x2048x64 : Shape := ⟨3, ![64, 2048, 64]⟩
abbrev S64x2048x2048 : Shape := ⟨3, ![64, 2048, 2048]⟩
abbrev S_ : Shape := ⟨0, ![]⟩
abbrev S64x2048 : Shape := ⟨2, ![64, 2048]⟩
abbrev S64x2048x1 : Shape := ⟨3, ![64, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S64x2048x64, .f32⟩
  | .hbm, ⟨1, _⟩ => ⟨S64x2048x64, .f32⟩
  | .hbm, ⟨2, _⟩ => ⟨S64x2048x64, .f32⟩
  | .hbm, ⟨3, _⟩ => ⟨S64x2048x2048, .i1⟩
  | .hbm, ⟨4, _⟩ => ⟨S64x2048x2048, .f32⟩
  | .hbm, ⟨5, _⟩ => ⟨S_, .f32⟩
  | .hbm, ⟨6, _⟩ => ⟨S64x2048x2048, .f32⟩
  | .hbm, ⟨7, _⟩ => ⟨S64x2048x2048, .f32⟩
  | .hbm, ⟨8, _⟩ => ⟨S_, .f32⟩
  | .hbm, ⟨9, _⟩ => ⟨S_, .f32⟩
  | .hbm, ⟨10, _⟩ => ⟨S64x2048x2048, .f32⟩
  | .hbm, ⟨11, _⟩ => ⟨S64x2048x2048, .f32⟩
  | .hbm, ⟨12, _⟩ => ⟨S_, .f32⟩
  | .hbm, ⟨13, _⟩ => ⟨S64x2048, .f32⟩
  | .hbm, ⟨14, _⟩ => ⟨S_, .f32⟩
  | .hbm, ⟨15, _⟩ => ⟨S64x2048, .f32⟩
  | .hbm, ⟨16, _⟩ => ⟨S64x2048, .f32⟩
  | .hbm, ⟨17, _⟩ => ⟨S64x2048x1, .f32⟩
  | .hbm, ⟨18, _⟩ => ⟨S64x2048x2048, .f32⟩
  | .hbm, ⟨19, _⟩ => ⟨S64x2048x2048, .f32⟩
  | .hbm, ⟨20, _⟩ => ⟨S64x2048x2048, .f32⟩
  | .hbm, ⟨21, _⟩ => ⟨S_, .f32⟩
  | .hbm, ⟨22, _⟩ => ⟨S64x2048, .f32⟩
  | .hbm, ⟨23, _⟩ => ⟨S64x2048x1, .f32⟩
  | .hbm, ⟨24, _⟩ => ⟨S64x2048x2048, .f32⟩
  | .hbm, ⟨25, _⟩ => ⟨S64x2048x2048, .f32⟩
  | .hbm, ⟨26, _⟩ => ⟨S64x2048x64, .f32⟩
  | _, _ => ⟨S64x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S64x2048x2048 : S_.BroadcastsInDim S64x2048x2048 (![] : Fin 0 → Fin S64x2048x2048.rank)
  reducesTo_S64x2048x2048_S64x2048_d2 : S64x2048x2048.ReducesTo [2] S64x2048
  h_S_ : 0 < S_.numel
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  bcast_S64x2048x1_S64x2048x2048_0_1_2 : S64x2048x1.BroadcastsInDim S64x2048x2048 (![0, 1, 2] : Fin 3 → Fin S64x2048x2048.rank)
  dot_S64x2048x64_S64x2048x64_S64x2048x2048_2_2_1_1_0_0_wf : DotDims.WF S64x2048x64 S64x2048x64 S64x2048x2048 [2] [2] [1] [1] [0] [0]
  dot_S64x2048x2048_S64x2048x64_S64x2048x64_2_1_1_2_0_0_wf : DotDims.WF S64x2048x2048 S64x2048x64 S64x2048x64 [2] [1] [1] [2] [0] [0]

variable [Facts₀]

def dot_S64x2048x64_S64x2048x64_S64x2048x2048_2_2_1_1_0_0 : DotDims S64x2048x64 S64x2048x64 S64x2048x2048 where
  lhsContracting := [2]
  rhsContracting := [2]
  lhsNonContracting := [1]
  rhsNonContracting := [1]
  lhsBatch := [0]
  rhsBatch := [0]
  wf := dot_S64x2048x64_S64x2048x64_S64x2048x2048_2_2_1_1_0_0_wf
def dot_S64x2048x2048_S64x2048x64_S64x2048x64_2_1_1_2_0_0 : DotDims S64x2048x2048 S64x2048x64 S64x2048x64 where
  lhsContracting := [2]
  rhsContracting := [1]
  lhsNonContracting := [1]
  rhsNonContracting := [2]
  lhsBatch := [0]
  rhsBatch := [0]
  wf := dot_S64x2048x2048_S64x2048x64_S64x2048x64_2_1_1_2_0_0_wf

class Facts : Prop extends Facts₀ where

variable [Facts]
-- ==== Proof.Finite.lean ====
/-
  Finite inputs are real numbers.

  The precondition says, for the queries, the keys and the values, that every entry's absolute value is below `+∞`.
  On the extended reals the absolute value of `x` is `max x (-x)`, which is `+∞` exactly at the two infinities; so an
  entry that satisfies the comparison is (the coercion of) a real number.
-/
import proofs.«162747_j69226282876939_2_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Finite

open Cert.Pre_finite_inputs Cert.Pre_finite_inputs.Gen Idealize.ShloMosaic

/-- A rank-zero array has one index. -/
instance : Subsingleton S_.Idx := ⟨fun _ _ => funext fun d => d.elim0⟩

/-- An extended real whose absolute value compares below `+∞` is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  unfold Ideal.cmp at h
  induction x using EReal.rec with
  | bot => simp at h
  | top => simp at h
  | coe r => exact ⟨r, rfl⟩

/-- Under the precondition every query entry and every key entry is a real number. -/
theorem reals_of_pre (a0 a1 a2 : FVec Ideal S64x2048x64 .f32) (a3 : IVec S64x2048x2048 1)
    (h : fn (F := Ideal) a0 a1 a2 a3 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨h01, -⟩ := IntOp.andi_eq_one.1 h0
  obtain ⟨hq, hk⟩ := IntOp.andi_eq_one.1 h01
  exact ⟨fun i => real_of_abs_lt_inf _ (Host.reduce_andi_all _ _ _ _ ValueIdx.ix0 hq i),
    fun i => real_of_abs_lt_inf _ (Host.reduce_andi_all _ _ _ _ ValueIdx.ix0 hk i)⟩

end Cert.Pre_finite_inputs.Finite

end
-- ==== Proof.Softmax.lean ====
/-
  Masked scaled-dot-product attention over the extended reals, row by row.

  For one batch entry and one query row the scores form a row `s : Fin 2048 → EReal`: at key `j` the dot product of
  the query row with key row `j` over the 64 head coordinates, divided by 8, or the fill value where the mask bit is
  set. The attention weights of the row are its softmax: `exp (s j - M) / ∑ k, exp (s k - M)` with `M` the row's maximum,
  taken from `-∞` upward. The output row is the weights' combination of the value rows.

  Two programs that compute this may scale differently: one multiplies every query coordinate by `1/8` before the dot
  product, the other divides the dot product by `8`. For FINITE queries and keys the two agree (`scaled_dot`):
  a finite sum of reals distributes over the common factor. This is the only place finiteness is used; everything
  else is the same expression on both sides.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-! ## The literals -/

/-- The word `0x3E000000` denotes the real `1/8`. -/
theorem ofBits_eighth : Ideal.ofBits .f32 0x3E000000#32 = ((1 / 8 : ℝ) : EReal) := by
  simp [Ideal.ofBits, Ideal.ieee, -EReal.coe_mul]; norm_num

/-- The word `0x41000000` denotes the real `8`. -/
theorem ofBits_eight : Ideal.ofBits .f32 0x41000000#32 = ((8 : ℝ) : EReal) := by
  simp [Ideal.ofBits, Ideal.ieee, -EReal.coe_mul]; norm_num

/-- The word `0xFF800000` denotes `-∞`, the bottom of the extended reals. -/
theorem ofBits_neg_inf : Ideal.ofBits .f32 0xFF800000#32 = (⊥ : EReal) := by
  simp [Ideal.ofBits, Ideal.ieee]

/-! ## Scaling before or after the dot product -/

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real queries and keys: scaling each query coordinate by `1/8` before the dot product is dividing the dot
    product by `8`. -/
theorem scaled_dot (q k : Fin 64 → ℝ) :
    ∑ d : Fin 64, ((q d : EReal) * Ideal.ofBits .f32 0x3E000000#32) * (k d : EReal)
      = Ideal.div (∑ d : Fin 64, (q d : EReal) * (k d : EReal)) (Ideal.ofBits .f32 0x41000000#32) := by
  rw [ofBits_eighth, ofBits_eight, Ideal.div_coe (by norm_num)]
  simp only [← EReal.coe_mul, ← coe_sum]
  congr 1
  rw [Finset.sum_mul]
  exact Finset.sum_congr rfl fun d _ => by ring

/-! ## The mask bit -/

/-- A mask bit widened to a word and compared with zero is the bit. -/
theorem ne_zero_setWidth : ∀ b : BitVec 1, IntOp.cmpi .ne (b.setWidth 32) 0#32 = b := by decide

/-! ## One row -/

/-- The maximum of a row of 2048 scores, from `-∞` upward. -/
def rowMax (s : Fin 2048 → EReal) : EReal :=
  (Finset.univ : Finset (Fin 2048)).fold max (Ideal.ofBits .f32 0xFF800000#32) s

/-- Taking the maximum with `-∞` once more changes nothing. -/
theorem max_neg_inf_rowMax (s : Fin 2048 → EReal) : max (Ideal.ofBits .f32 0xFF800000#32) (rowMax s) = rowMax s := by
  rw [ofBits_neg_inf]; exact max_eq_right bot_le

/-- The softmax of a row at key `j`. -/
def soft (s : Fin 2048 → EReal) (j : Fin 2048) : EReal :=
  Ideal.div (Ideal.exp (s j - rowMax s)) (∑ k : Fin 2048, Ideal.exp (s k - rowMax s))

/-! ## The whole arrays -/

/-- The score of query row `r` against key row `j` in batch entry `b`: the fill value where the mask bit is set,
    else the dot product over the head coordinates divided by 8. -/
def score (Q K : (⟨3, ![64, 2048, 64]⟩ : Shape).Idx → EReal) (M : (⟨3, ![64, 2048, 2048]⟩ : Shape).Idx → BitVec 1)
    (b : Fin 64) (r : Fin 2048) (j : Fin 2048) : EReal :=
  Scalar.select (M (ix3 b r j)) (Ideal.ofBits .f32 0xD01502F9#32)
    (Ideal.div (∑ d : Fin 64, Q (ix3 b r d) * K (ix3 b j d)) (Ideal.ofBits .f32 0x41000000#32))

/-- The attention weights: each query row's softmax. -/
def attn (Q K : (⟨3, ![64, 2048, 64]⟩ : Shape).Idx → EReal) (M : (⟨3, ![64, 2048, 2048]⟩ : Shape).Idx → BitVec 1) :
    (⟨3, ![64, 2048, 2048]⟩ : Shape).Idx → EReal :=
  fun i => soft (score Q K M (i 0) (i 1)) (i 2)

/-- The output: each query row's weights combining the value rows. -/
def outp (Q K W : (⟨3, ![64, 2048, 64]⟩ : Shape).Idx → EReal) (M : (⟨3, ![64, 2048, 2048]⟩ : Shape).Idx → BitVec 1) :
    (⟨3, ![64, 2048, 64]⟩ : Shape).Idx → EReal :=
  fun i => ∑ j : Fin 2048, attn Q K M (ix3 (i 0) (i 1) j) * W (ix3 (i 0) j (i 2))

end Cert.Attn

end
-- ==== Proof.RefAttn.lean ====
/-
  The reference computes the attention weights and the output of `Softmax.lean`.

  Read one operation at a time: the batched dot product of a query row with a key row is the sum over the 64 head
  coordinates; the quotient by the broadcast 8 and the masked fill give the score; the reduction by maximum along the
  key axis, from `-∞`, and the further maximum with `-∞`, give the row's maximum; exponentials of the differences,
  their sum along the key axis from 0, and the quotient give the softmax; the second batched dot product combines the
  value rows with the weights.
-/
import proofs.«162747_j69226282876939_2_alg».proof.Proof.Gen.ReferenceIdeal.Read
import proofs.«162747_j69226282876939_2_alg».proof.Proof.Softmax

noncomputable section

namespace Cert.ReferenceIdeal.RefValue

open Cert.ReferenceIdeal Cert.ReferenceIdeal.Gen Cert.ReferenceIdeal.Read Idealize.ShloMosaic Idealize.ShloMosaic.ValueIdx Cert.Attn

variable (x0 x1 x2 : (⟨S64x2048x64, .f32⟩ : BufTy).Contents (Elt Ideal)) (x3 : (⟨S64x2048x2048, .i1⟩ : BufTy).Contents (Elt Ideal))

/-- The masked, scaled score at batch entry `b`, query row `r`, key row `j`. -/
theorem v3_apply (b : Fin 64) (r j : Fin 2048) :
    val_main_v3 (F := Ideal) x0 x1 x3 (ix3 b r j) = score x0 x1 x3 b r j := by
  rw [val_main_v3_apply, val_main_call0_v1_apply, val_main_call0_v0_apply, val_main_cst_0_apply, val_main_v2_apply,
    val_main_v0_apply, val_main_v1_apply, val_main_cst_apply]
  have el : ∀ k : Fin 64, lidx_main_v0 (ix3 b r j) k = ix3 b r k := fun k => funext fun a => Fin.ext (by
    match a with | ⟨0, _⟩ => rfl | ⟨1, _⟩ => rfl | ⟨2, _⟩ => rfl)
  have er : ∀ k : Fin 64, ridx_main_v0 (ix3 b r j) k = ix3 b j k := fun k => funext fun a => Fin.ext (by
    match a with | ⟨0, _⟩ => rfl | ⟨1, _⟩ => rfl | ⟨2, _⟩ => rfl)
  simp only [el, er]
  rfl

/-- The reduction's witness at the literal shapes: the key axis is dropped. -/
theorem hred : S64x2048x2048.Reduces [2] S64x2048 := by decide

/-- The maximum along the key axis, from `-∞`, is the row's maximum. -/
theorem v4_apply (b : Fin 64) (r : Fin 2048) :
    val_main_v4 (F := Ideal) x0 x1 x3 (ix2 b r) = rowMax (score x0 x1 x3 b r) := by
  unfold val_main_v4
  rw [Host.reduce_eq_fold_single FloatOps.maximumf _ _ reducesTo_S64x2048x2048_S64x2048_d2 hred h_S_ (ix2 b r)]
  have e : (val_main_v3 (F := Ideal) x0 x1 x3 ∘ hred.lift (ix2 b r)) = score x0 x1 x3 b r := funext fun (k : Fin 2048) => by
    have hk : hred.lift (ix2 b r) k = ix3 b r k := funext fun a => Fin.ext (by
      match a with | ⟨0, _⟩ => rfl | ⟨1, _⟩ => rfl | ⟨2, _⟩ => rfl)
    show val_main_v3 (F := Ideal) x0 x1 x3 (hred.lift (ix2 b r) k) = _
    rw [hk, v3_apply]
  rw [e]
  rfl

/-- The further maximum with `-∞` leaves the row's maximum. -/
theorem v6_apply (b : Fin 64) (r : Fin 2048) :
    val_main_v6 (F := Ideal) x0 x1 x3 (ix2 b r) = rowMax (score x0 x1 x3 b r) := by
  rw [val_main_v6_apply, val_main_v5_apply, val_main_cst_2_apply, v4_apply]
  exact max_neg_inf_rowMax _

/-- The exponential of a score less its row's maximum. -/
theorem v10_apply (b : Fin 64) (r j : Fin 2048) :
    val_main_v10 (F := Ideal) x0 x1 x3 (ix3 b r j) = Ideal.exp (score x0 x1 x3 b r j - rowMax (score x0 x1 x3 b r)) := by
  rw [val_main_v10_apply, val_main_v9_apply, val_main_v8_apply, val_main_v7_apply]
  have e : idx_main_v7 (idx_main_v8 (ix3 b r j)) = ix2 b r := funext fun a => Fin.ext (by
    match a with | ⟨0, _⟩ => rfl | ⟨1, _⟩ => rfl)
  rw [e, v6_apply, v3_apply]
  rfl

/-- The sum of a row's exponentials, from 0. -/
theorem v11_apply (b : Fin 64) (r : Fin 2048) :
    val_main_v11 (F := Ideal) x0 x1 x3 (ix2 b r) = ∑ k : Fin 2048, Ideal.exp (score x0 x1 x3 b r k - rowMax (score x0 x1 x3 b r)) := by
  rw [val_main_v11_apply, val_main_cst_3_apply]
  show Ideal.ofBits .f32 0x00000000#32 + _ = _
  rw [Ideal.ofBits_zero_f32, zero_add]
  refine Finset.sum_congr rfl fun k _ => ?_
  have e : idx_main_v11 (ix2 b r) k = ix3 b r k := funext fun a => Fin.ext (by
    match a with | ⟨0, _⟩ => rfl | ⟨1, _⟩ => rfl | ⟨2, _⟩ => rfl)
  rw [e, v10_apply]

/-- The reference's second result is the attention weights. -/
theorem v14_eq : val_main_v14 (F := Ideal) x0 x1 x3 = attn x0 x1 x3 := by
  funext i
  obtain ⟨b, r, j, rfl⟩ : ∃ (b : Fin 64) (r j : Fin 2048), i = ix3 b r j := ⟨i 0, i 1, i 2, eq_ix3 i⟩
  rw [val_main_v14_apply, val_main_v13_apply, val_main_v12_apply]
  have e : idx_main_v12 (idx_main_v13 (ix3 b r j)) = ix2 b r := funext fun a => Fin.ext (by
    match a with | ⟨0, _⟩ => rfl | ⟨1, _⟩ => rfl)
  rw [e, v11_apply, v10_apply]
  rfl

/-- The reference's first result is the output. -/
theorem v15_eq : val_main_v15 (F := Ideal) x0 x1 x2 x3 = outp x0 x1 x2 x3 := by
  funext i
  rw [val_main_v15_apply, v14_eq]
  unfold outp
  refine Finset.sum_congr rfl fun k _ => ?_
  have el : lidx_main_v15 i k = ix3 (i 0) (i 1) k := funext fun a => Fin.ext (by
    match a with | ⟨0, _⟩ => rfl | ⟨1, _⟩ => rfl | ⟨2, _⟩ => rfl)
  have er : ridx_main_v15 i k = ix3 (i 0) k (i 2) := funext fun a => Fin.ext (by
    match a with | ⟨0, _⟩ => rfl | ⟨1, _⟩ => rfl | ⟨2, _⟩ => rfl)
  rw [el, er]
  rfl

end Cert.ReferenceIdeal.RefValue

end
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.LibKeepdims.lean ====
/-
  A vector kept as a column: the two layout operations a reduction with kept dimensions prints, read at an index
  given by coordinates.

  A row reduction of an `[a, b]` matrix leaves a vector of length `a`; to set it against the matrix again it is cast
  to the column `[a, 1]` and that column is broadcast along the rows to `[a, b]`. At `(i, j)` the result is the
  vector's entry `i`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- A vector of length `a` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector cast to a column and broadcast along the rows reads, at `(i, j)`, the vector at `i`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

end Cert.LibKeepdims
-- ==== Proof.KernelRow.lean ====
/-
  What the kernel body computes from its four loaded blocks, index by index.

  The body loads a block of 512 query rows, the batch entry's 2048 key rows and 2048 value rows, and the 512 × 2048
  block of mask words. Its score matrix is the product of the query block, every coordinate first scaled by `1/8`,
  with the key block over the 64 head coordinates, the fill value put where the mask word is not zero. Each row of the
  score matrix then goes through the softmax: the row's maximum from `-∞`, the exponentials of the differences, their
  sum, the quotient. That is the first stored value; the second is its product with the value block over the 2048
  keys. Rounding to a shorter float format on the way into a product is the identity on the extended reals.
-/
import proofs.«162747_j69226282876939_2_alg».proof.Proof.Gen.KernelIdeal.Skeleton
import proofs.«162747_j69226282876939_2_alg».proof.Proof.Softmax
import proofs.«162747_j69226282876939_2_alg».proof.Proof.LibDotSingle
import proofs.«162747_j69226282876939_2_alg».proof.Proof.LibKeepdims
import Idealize.ShloMosaic.Lib.ValueLayout
import Idealize.ShloMosaic.Lib.ValueIdx
import Idealize.ShloMosaic.PureOps.Ideal.Laws

noncomputable section

namespace Cert.KernelIdeal.RowValue

open Cert.KernelIdeal Cert.KernelIdeal.Gen Idealize.ShloMosaic Idealize.ShloMosaic.ValueIdx Cert.Attn

/-! ## The two products' operand indices -/

/-- In the score product the left operand at result `(r, j)` and head coordinate `k` is read at `(r, k)`. -/
theorem dot1_l (r : Fin 512) (j : Fin 2048) (k : Fin 64) :
    dot_S512x64_S2048x64_S512x2048_1_1_0_0_n_n.lhsIdx (ix2 r j) ((contrEquiv1 dot_S512x64_S2048x64_S512x2048_1_1_0_0_n_n 64 rfl rfl).symm k) = ix2 r k :=
  funext fun a => Fin.ext (by
    match a with
    | ⟨0, _⟩ =>
      show (dot_S512x64_S2048x64_S512x2048_1_1_0_0_n_n.lhsIdx (ix2 r j) _ 0).val = r.val
      unfold DotDims.lhsIdx
      rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
      rfl
    | ⟨1, _⟩ => exact (dot_S512x64_S2048x64_S512x2048_1_1_0_0_n_n.lhsIdx_val_of_single rfl _ _).trans (contrEquiv1_symm_val dot_S512x64_S2048x64_S512x2048_1_1_0_0_n_n 64 rfl rfl k))

/-- … and the right operand at `(j, k)`. -/
theorem dot1_r (r : Fin 512) (j : Fin 2048) (k : Fin 64) :
    dot_S512x64_S2048x64_S512x2048_1_1_0_0_n_n.rhsIdx (ix2 r j) ((contrEquiv1 dot_S512x64_S2048x64_S512x2048_1_1_0_0_n_n 64 rfl rfl).symm k) = ix2 j k :=
  funext fun a => Fin.ext (by
    match a with
    | ⟨0, _⟩ =>
      show (dot_S512x64_S2048x64_S512x2048_1_1_0_0_n_n.rhsIdx (ix2 r j) _ 0).val = j.val
      unfold DotDims.rhsIdx
      rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
      rfl
    | ⟨1, _⟩ => exact (dot_S512x64_S2048x64_S512x2048_1_1_0_0_n_n.rhsIdx_val_of_single rfl _ _).trans (contrEquiv1_symm_val dot_S512x64_S2048x64_S512x2048_1_1_0_0_n_n 64 rfl rfl k))

/-- In the output product the left operand at result `(r, d)` and key `k` is read at `(r, k)`. -/
theorem dot2_l (r : Fin 512) (d : Fin 64) (k : Fin 2048) :
    dot_S512x2048_S2048x64_S512x64_1_0_0_1_n_n.lhsIdx (ix2 r d) ((contrEquiv1 dot_S512x2048_S2048x64_S512x64_1_0_0_1_n_n 2048 rfl rfl).symm k) = ix2 r k :=
  funext fun a => Fin.ext (by
    match a with
    | ⟨0, _⟩ =>
      show (dot_S512x2048_S2048x64_S512x64_1_0_0_1_n_n.lhsIdx (ix2 r d) _ 0).val = r.val
      unfold DotDims.lhsIdx
      rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
      rfl
    | ⟨1, _⟩ => exact (dot_S512x2048_S2048x64_S512x64_1_0_0_1_n_n.lhsIdx_val_of_single rfl _ _).trans (contrEquiv1_symm_val dot_S512x2048_S2048x64_S512x64_1_0_0_1_n_n 2048 rfl rfl k))

/-- … and the right operand at `(k, d)`. -/
theorem dot2_r (r : Fin 512) (d : Fin 64) (k : Fin 2048) :
    dot_S512x2048_S2048x64_S512x64_1_0_0_1_n_n.rhsIdx (ix2 r d) ((contrEquiv1 dot_S512x2048_S2048x64_S512x64_1_0_0_1_n_n 2048 rfl rfl).symm k) = ix2 k d :=
  funext fun a => Fin.ext (by
    match a with
    | ⟨0, _⟩ => exact (dot_S512x2048_S2048x64_S512x64_1_0_0_1_n_n.rhsIdx_val_of_single rfl _ _).trans (contrEquiv1_symm_val dot_S512x2048_S2048x64_S512x64_1_0_0_1_n_n 2048 rfl rfl k)
    | ⟨1, _⟩ =>
      show (dot_S512x2048_S2048x64_S512x64_1_0_0_1_n_n.rhsIdx (ix2 r d) _ 1).val = d.val
      unfold DotDims.rhsIdx
      rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
      rfl)

/-! ## The score matrix of a block -/

/-- The block's masked score at query row `r` and key `j`, from the loaded blocks. -/
def kscore (P0 : Vec Ideal S1x512x64 .f32) (P1 : Vec Ideal S1x2048x64 .f32) (P3 : Vec Ideal S1x512x2048 .i32)
    (r : Fin 512) (j : Fin 2048) : EReal :=
  Scalar.select (IntOp.cmpi .ne (P3 (ix3 (0 : Fin 1) r j)) 0#32) (Ideal.ofBits .f32 0xD01502F9#32)
    (∑ d : Fin 64, (P0 (ix3 (0 : Fin 1) r d) * Ideal.ofBits .f32 0x3E000000#32) * P1 (ix3 (0 : Fin 1) j d))

/-- The score matrix as the body's vector operations spell it. -/
def scoreB (P0 : Vec Ideal S1x512x64 .f32) (P1 : Vec Ideal S1x2048x64 .f32) (P3 : Vec Ideal S1x512x2048 .i32) : FVec Ideal S512x2048 .f32 :=
  select (cmpi .ne (shapeCast S512x2048 P3 shapeCasts_S1x512x2048_S512x2048) (constantI S512x2048 32 0#32))
    (broadcast S512x2048 (Scalar.ofBits (F := Ideal) .f32 0xD01502F9#32))
    (matmul dot_S512x64_S2048x64_S512x2048_1_1_0_0_n_n none
      (truncf .bf16 (mulf (shapeCast S512x64 P0 shapeCasts_S1x512x64_S512x64) (broadcast S512x64 (Scalar.ofBits (F := Ideal) .f32 0x3E000000#32))) bitsLt_bf16_f32)
      (truncf .bf16 (shapeCast S2048x64 P1 shapeCasts_S1x2048x64_S2048x64) bitsLt_bf16_f32)
      (constant (F := Ideal) S512x2048 .f32 0x00000000#32))

theorem scoreB_apply (P0 : Vec Ideal S1x512x64 .f32) (P1 : Vec Ideal S1x2048x64 .f32) (P3 : Vec Ideal S1x512x2048 .i32)
    (r : Fin 512) (j : Fin 2048) : scoreB P0 P1 P3 (ix2 r j) = kscore P0 P1 P3 r j := by
  unfold scoreB kscore
  refine congrArg₂ (fun c x => Scalar.select c (Ideal.ofBits .f32 0xD01502F9#32) x) ?_ ?_
  · show IntOp.cmpi .ne (shapeCast S512x2048 P3 shapeCasts_S1x512x2048_S512x2048 (ix2 r j)) 0#32 = _
    rw [shapeCast_1ab_ab_apply]
  · refine (Cert.LibDotSingle.matmul_zero_apply dot_S512x64_S2048x64_S512x2048_1_1_0_0_n_n 64 rfl rfl none _ _ (ix2 r j)
      (fun k => ix2 r k) (fun k => ix2 j k) (dot1_l r j) (dot1_r r j)).trans ?_
    refine Finset.sum_congr rfl fun k _ => ?_
    show (shapeCast S512x64 P0 shapeCasts_S1x512x64_S512x64 (ix2 r k) * Ideal.ofBits .f32 0x3E000000#32)
        * shapeCast S2048x64 P1 shapeCasts_S1x2048x64_S2048x64 (ix2 j k) = _
    rw [shapeCast_1ab_ab_apply, shapeCast_1ab_ab_apply]

/-! ## The softmax of a score matrix, row by row -/

/-- Each row's maximum, from `-∞`, laid along the row again. -/
def maxB (s : FVec Ideal S512x2048 .f32) : FVec Ideal S512x2048 .f32 :=
  broadcastTo S512x2048 (shapeCast S512x1 (multiReduction .maximumf [1] S512 s 0xFF800000#32 reduces_S512x2048_S512 (.inl rfl) rfl)
    shapeCasts_S512_S512x1) broadcasts_S512x1_S512x2048

theorem maxB_apply (s : FVec Ideal S512x2048 .f32) (r : Fin 512) (j : Fin 2048) :
    maxB s (ix2 r j) = rowMax (fun k => s (ix2 r k)) := by
  unfold maxB
  refine (Cert.LibKeepdims.column_apply _ shapeCasts_S512_S512x1 broadcasts_S512x1_S512x2048 r j).trans ?_
  refine (Ideal.multiReduction_maximumf_single s 0xFF800000#32 reduces_S512x2048_S512 (.inl rfl) rfl (ix1 r)).trans ?_
  have e : (s ∘ reduces_S512x2048_S512.lift (ix1 r)) = fun k : Fin 2048 => s (ix2 r k) :=
    funext fun (k : Fin 2048) => congrArg s (funext fun a => Fin.ext (by match a with | ⟨0, _⟩ => rfl | ⟨1, _⟩ => rfl))
  rw [e]
  rfl

/-- The exponentials of the scores less their row's maximum. -/
def expB (s : FVec Ideal S512x2048 .f32) : FVec Ideal S512x2048 .f32 := exp (subf s (maxB s))

theorem expB_apply (s : FVec Ideal S512x2048 .f32) (r : Fin 512) (j : Fin 2048) :
    expB s (ix2 r j) = Ideal.exp (s (ix2 r j) - rowMax (fun k => s (ix2 r k))) := by
  show Ideal.exp (s (ix2 r j) - maxB s (ix2 r j)) = _
  rw [maxB_apply]

/-- Each row's sum of exponentials, laid along the row again. -/
def sumB (s : FVec Ideal S512x2048 .f32) : FVec Ideal S512x2048 .f32 :=
  broadcastTo S512x2048 (shapeCast S512x1 (multiReduction .add [1] S512 (expB s) 0x00000000#32 reduces_S512x2048_S512 (.inl rfl) rfl)
    shapeCasts_S512_S512x1) broadcasts_S512x1_S512x2048

theorem sumB_apply (s : FVec Ideal S512x2048 .f32) (r : Fin 512) (j : Fin 2048) :
    sumB s (ix2 r j) = ∑ k : Fin 2048, Ideal.exp (s (ix2 r k) - rowMax (fun k => s (ix2 r k))) := by
  unfold sumB
  refine (Cert.LibKeepdims.column_apply _ shapeCasts_S512_S512x1 broadcasts_S512x1_S512x2048 r j).trans ?_
  refine (Ideal.multiReduction_add_single (expB s) 0x00000000#32 reduces_S512x2048_S512 (.inl rfl) rfl (ix1 r)).trans ?_
  refine Finset.sum_congr rfl fun (k : Fin 2048) _ => ?_
  have e : reduces_S512x2048_S512.lift (ix1 r) k = ix2 r k :=
    funext fun a => Fin.ext (by match a with | ⟨0, _⟩ => rfl | ⟨1, _⟩ => rfl)
  rw [e, expB_apply]

/-- The softmax of every row. -/
def softB (s : FVec Ideal S512x2048 .f32) : FVec Ideal S512x2048 .f32 := divf (expB s) (sumB s)

theorem softB_apply (s : FVec Ideal S512x2048 .f32) (r : Fin 512) (j : Fin 2048) :
    softB s (ix2 r j) = soft (fun k => s (ix2 r k)) j := by
  show Ideal.div (expB s (ix2 r j)) (sumB s (ix2 r j)) = _
  rw [expB_apply, sumB_apply]
  rfl

/-! ## The two stored values -/

/-- The first stored value is the softmax of the score matrix. -/
theorem pay2_eq (P0 : Vec Ideal S1x512x64 .f32) (P1 : Vec Ideal S1x2048x64 .f32) (P3 : Vec Ideal S1x512x2048 .i32) :
    k0_pay2 (F := Ideal) P0 P1 P3 = softB (scoreB P0 P1 P3) := rfl

/-- At query row `r` and key `j` it is the softmax of the block's score row `r`. -/
theorem pay2_apply (P0 : Vec Ideal S1x512x64 .f32) (P1 : Vec Ideal S1x2048x64 .f32) (P3 : Vec Ideal S1x512x2048 .i32)
    (r : Fin 512) (j : Fin 2048) : k0_pay2 (F := Ideal) P0 P1 P3 (ix2 r j) = soft (kscore P0 P1 P3 r) j := by
  rw [pay2_eq, softB_apply]
  have e : (fun k => scoreB P0 P1 P3 (ix2 r k)) = kscore P0 P1 P3 r := funext fun k => scoreB_apply P0 P1 P3 r k
  rw [e]

/-- The second stored value at query row `r` and head coordinate `d`: the weights of row `r` combining the value
    block's column `d`. -/
theorem pay4_apply (P0 : Vec Ideal S1x512x64 .f32) (P1 P2 : Vec Ideal S1x2048x64 .f32) (P3 : Vec Ideal S1x512x2048 .i32)
    (r : Fin 512) (d : Fin 64) :
    k0_pay4 (F := Ideal) P0 P1 P2 P3 (ix2 r d) = ∑ j : Fin 2048, soft (kscore P0 P1 P3 r) j * P2 (ix3 (0 : Fin 1) j d) := by
  unfold k0_pay4
  refine (Cert.LibDotSingle.matmul_zero_apply dot_S512x2048_S2048x64_S512x64_1_0_0_1_n_n 2048 rfl rfl none _ _ (ix2 r d)
    (fun k => ix2 r k) (fun k => ix2 k d) (dot2_l r d) (dot2_r r d)).trans ?_
  refine Finset.sum_congr rfl fun k _ => ?_
  show k0_pay2 (F := Ideal) P0 P1 P3 (ix2 r k) * shapeCast S2048x64 P2 shapeCasts_S1x2048x64_S2048x64 (ix2 k d) = _
  rw [pay2_apply, shapeCast_1ab_ab_apply]

end Cert.KernelIdeal.RowValue

end
-- ==== Proof.KernelArray.lean ====
/-
  From the blocks the grid points write to the two whole result arrays.

  Grid point `t` of the 64 × 4 grid works on batch entry `t / 4` and on the 512 query rows from `512 · (t % 4)`: its
  query block, its mask block and its two output blocks sit there, and its key and value blocks are the whole batch
  entry. Reading each loaded block as entries of its argument array turns the block's score row into the score row of
  the arrays (for real queries and keys, where scaling before the dot product is dividing after it), so the block a
  point writes back is that block of the attention weights, respectively of the output. The blocks of the 256 points
  tile both result arrays.
-/
import proofs.«162747_j69226282876939_2_alg».proof.Proof.Gen.KernelIdeal.Value
import proofs.«162747_j69226282876939_2_alg».proof.Proof.KernelRow
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.ArrValue

open Cert.KernelIdeal Cert.KernelIdeal.Gen Cert.KernelIdeal.Value Cert.KernelIdeal.RowValue Idealize.ShloMosaic.ValueIdx Cert.Attn

variable (m : (ℓ : Loc nD τ sig) → Buf (Elt Ideal) ℓ) (ρ : Dev nD → PrngReg)

/-- The queries, keys, values and mask bits as launched. -/
abbrev Qa (c : Dev nD) : S64x2048x64.Idx → EReal := m ((c : Thread nD τ).loc main_arg0)
abbrev Ka (c : Dev nD) : S64x2048x64.Idx → EReal := m ((c : Thread nD τ).loc main_arg1)
abbrev Wa (c : Dev nD) : S64x2048x64.Idx → EReal := m ((c : Thread nD τ).loc main_arg2)
abbrev Ma (c : Dev nD) : S64x2048x2048.Idx → BitVec 1 := m ((c : Thread nD τ).loc main_arg3)

/-! ## Where each window's block sits -/

/-- The printed index maps over the grid: point `t` is batch entry `t / 4`, query tile `t % 4`. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = t.val % 4 ∧ win0_5.index t (2 : Fin 3) = 0 :=
  (by decide +kernel : ∀ t : Fin grid0.N, _)

/-- The mask words the region finds: each mask bit widened to a word. -/
theorem V_mask (c : Dev nD) : (V m c main_v0 : S64x2048x2048.Idx → BitVec 32) = extui 32 (Ma m c) natLt_1_32 := by
  dsimp only [Gen.V, Gen.hostOps0]; after_results

/-- The query block of point `t` is rows `512 · (t % 4) …` of batch entry `t / 4` of the queries. -/
theorem iblk0_apply (c : Dev nD) (t : Fin cfg0.N) (x : S1x512x64.Idx) (k : S64x2048x64.Idx)
    (hk0 : (k 0).val = t.val / 4) (hk1 : (k 1).val = 512 * (t.val % 4) + (x 1).val) (hk2 : (k 2).val = (x 2).val) :
    (iblk m c 0 t : Vec Ideal S1x512x64 .f32) x = Qa m c k := by
  obtain ⟨e0, e1, e2, -⟩ := idx_facts t
  have hx0 : (x 0).val < 1 := (x 0).isLt
  unfold iblk
  rw [View.read_apply]
  show V m c main_arg0 _ = _
  rw [V_main_arg0]
  refine congrArg _ (funext fun a => Fin.ext ?_)
  match a with
  | ⟨0, _⟩ => show win0_0.index t 0 * 1 + 1 * (x 0).val = (k 0).val; omega
  | ⟨1, _⟩ => show win0_0.index t 1 * 512 + 1 * (x 1).val = (k 1).val; omega
  | ⟨2, _⟩ => show win0_0.index t 2 * 64 + 1 * (x 2).val = (k 2).val; omega

/-- The key block of point `t` is batch entry `t / 4` of the keys. -/
theorem iblk1_apply (c : Dev nD) (t : Fin cfg0.N) (x : S1x2048x64.Idx) (k : S64x2048x64.Idx)
    (hk0 : (k 0).val = t.val / 4) (hk1 : (k 1).val = (x 1).val) (hk2 : (k 2).val = (x 2).val) :
    (iblk m c 1 t : Vec Ideal S1x2048x64 .f32) x = Ka m c k := by
  obtain ⟨-, -, -, e0, e1, e2, -⟩ := idx_facts t
  have hx0 : (x 0).val < 1 := (x 0).isLt
  unfold iblk
  rw [View.read_apply]
  show V m c main_arg1 _ = _
  rw [V_main_arg1]
  refine congrArg _ (funext fun a => Fin.ext ?_)
  match a with
  | ⟨0, _⟩ => show win0_1.index t 0 * 1 + 1 * (x 0).val = (k 0).val; omega
  | ⟨1, _⟩ => show win0_1.index t 1 * 2048 + 1 * (x 1).val = (k 1).val; omega
  | ⟨2, _⟩ => show win0_1.index t 2 * 64 + 1 * (x 2).val = (k 2).val; omega

/-- The value block of point `t` is batch entry `t / 4` of the values. -/
theorem iblk2_apply (c : Dev nD) (t : Fin cfg0.N) (x : S1x2048x64.Idx) (k : S64x2048x64.Idx)
    (hk0 : (k 0).val = t.val / 4) (hk1 : (k 1).val = (x 1).val) (hk2 : (k 2).val = (x 2).val) :
    (iblk m c 2 t : Vec Ideal S1x2048x64 .f32) x = Wa m c k := by
  obtain ⟨-, -, -, -, -, -, e0, e1, e2, -⟩ := idx_facts t
  have hx0 : (x 0).val < 1 := (x 0).isLt
  unfold iblk
  rw [View.read_apply]
  show V m c main_arg2 _ = _
  rw [V_main_arg2]
  refine congrArg _ (funext fun a => Fin.ext ?_)
  match a with
  | ⟨0, _⟩ => show win0_2.index t 0 * 1 + 1 * (x 0).val = (k 0).val; omega
  | ⟨1, _⟩ => show win0_2.index t 1 * 2048 + 1 * (x 1).val = (k 1).val; omega
  | ⟨2, _⟩ => show win0_2.index t 2 * 64 + 1 * (x 2).val = (k 2).val; omega

/-- The mask block of point `t` is rows `512 · (t % 4) …` of batch entry `t / 4` of the mask, each bit widened. -/
theorem iblk3_apply (c : Dev nD) (t : Fin cfg0.N) (x : S1x512x2048.Idx) (k : S64x2048x2048.Idx)
    (hk0 : (k 0).val = t.val / 4) (hk1 : (k 1).val = 512 * (t.val % 4) + (x 1).val) (hk2 : (k 2).val = (x 2).val) :
    (iblk m c 3 t : Vec Ideal S1x512x2048 .i32) x = (Ma m c k).setWidth 32 := by
  obtain ⟨-, -, -, -, -, -, -, -, -, e0, e1, e2, -⟩ := idx_facts t
  have hx0 : (x 0).val < 1 := (x 0).isLt
  unfold iblk
  rw [View.read_apply]
  show (V m c main_v0 : S64x2048x2048.Idx → BitVec 32) _ = _
  rw [V_mask]
  show (Ma m c _).setWidth 32 = _
  refine congrArg (fun i => (Ma m c i).setWidth 32) (funext fun a => Fin.ext ?_)
  match a with
  | ⟨0, _⟩ => show win0_3.index t 0 * 1 + 1 * (x 0).val = (k 0).val; omega
  | ⟨1, _⟩ => show win0_3.index t 1 * 512 + 1 * (x 1).val = (k 1).val; omega
  | ⟨2, _⟩ => show win0_3.index t 2 * 2048 + 1 * (x 2).val = (k 2).val; omega

/-! ## A block's score row is the arrays' score row -/

/-- Where the loaded blocks are the arrays' entries of batch entry `b` (query row `R` at block row `r`) and the
    queries and keys are real numbers, the block's score row `r` is the arrays' score row `(b, R)`: the mask word is
    not zero exactly where the mask bit is set, and scaling the queries by `1/8` is dividing the dot product by `8`. -/
theorem kscore_eq_score (P0 : Vec Ideal S1x512x64 .f32) (P1 : Vec Ideal S1x2048x64 .f32) (P3 : Vec Ideal S1x512x2048 .i32)
    (Q K : (⟨3, ![64, 2048, 64]⟩ : Shape).Idx → EReal) (M : (⟨3, ![64, 2048, 2048]⟩ : Shape).Idx → BitVec 1)
    (hQ : ∀ i, ∃ x : ℝ, Q i = (x : EReal)) (hK : ∀ i, ∃ x : ℝ, K i = (x : EReal))
    (b : Fin 64) (r : Fin 512) (R : Fin 2048)
    (h0 : ∀ d : Fin 64, P0 (ix3 (0 : Fin 1) r d) = Q (ix3 b R d))
    (h1 : ∀ (j : Fin 2048) (d : Fin 64), P1 (ix3 (0 : Fin 1) j d) = K (ix3 b j d))
    (h3 : ∀ j : Fin 2048, P3 (ix3 (0 : Fin 1) r j) = (M (ix3 b R j)).setWidth 32) :
    kscore P0 P1 P3 r = score Q K M b R := by
  funext j
  unfold kscore score
  rw [h3 j, ne_zero_setWidth]
  refine congrArg (Scalar.select _ _) ?_
  simp only [h0, h1]
  choose q hq using fun d => hQ (ix3 b R d)
  choose k hk using fun d => hK (ix3 b j d)
  simp only [hq, hk]
  exact scaled_dot q k

/-! ## What the body leaves in the two output blocks -/

theorem hz : (![0, 0, 0] : Fin 3 → Nat) = fun _ => 0 := funext fun a => by fin_cases a <;> rfl

/-- The attention block at row `r`, key `j`: the softmax of the block's score row. -/
theorem out5_apply (x0 : Vec Ideal S1x512x64 .f32) (x1 x2 : Vec Ideal S1x2048x64 .f32) (x3 : Vec Ideal S1x512x2048 .i32)
    (u : Fin 1) (r : Fin 512) (j : Fin 2048) :
    out0_5 x0 x1 x2 x3 (ix3 u r j) = soft (kscore x0 x1 x3 r) j := by
  unfold out0_5
  rw [View.canon_unit_zero hz]
  simp only [View.ld_unit_zero (S := S1x512x64) hz, View.ld_unit_zero (S := S1x2048x64) hz, View.ld_unit_zero (S := S1x512x2048) hz]
  show shapeCast S1x512x2048 (k0_pay2 (F := Ideal) x0 x1 x3) shapeCasts_S512x2048_S1x512x2048 (ix3 u r j) = _
  rw [shapeCast_ab_1ab_apply, pay2_apply]

/-- The output block at row `r`, head coordinate `d`: the row's weights combining the value block. -/
theorem out4_apply (x0 : Vec Ideal S1x512x64 .f32) (x1 x2 : Vec Ideal S1x2048x64 .f32) (x3 : Vec Ideal S1x512x2048 .i32)
    (u : Fin 1) (r : Fin 512) (d : Fin 64) :
    out0_4 x0 x1 x2 x3 (ix3 u r d) = ∑ j : Fin 2048, soft (kscore x0 x1 x3 r) j * x2 (ix3 (0 : Fin 1) j d) := by
  unfold out0_4
  rw [View.canon_unit_zero hz]
  simp only [View.ld_unit_zero (S := S1x512x64) hz, View.ld_unit_zero (S := S1x2048x64) hz, View.ld_unit_zero (S := S1x512x2048) hz]
  show shapeCast S1x512x64 (k0_pay4 (F := Ideal) x0 x1 x2 x3) shapeCasts_S512x64_S1x512x64 (ix3 u r d) = _
  rw [shapeCast_ab_1ab_apply, pay4_apply]

/-- The same at any index of the block whose row and key coordinates are `r` and `j`. -/
theorem out5_at (x0 : Vec Ideal S1x512x64 .f32) (x1 x2 : Vec Ideal S1x2048x64 .f32) (x3 : Vec Ideal S1x512x2048 .i32)
    (y : S1x512x2048.Idx) (r : Fin 512) (j : Fin 2048) (hr : (y 1).val = r.val) (hj : (y 2).val = j.val) :
    out0_5 x0 x1 x2 x3 y = soft (kscore x0 x1 x3 r) j := by
  have hy0 : (y 0).val < 1 := (y 0).isLt
  have e : y = ix3 (⟨(y 0).val, hy0⟩ : Fin 1) r j := funext fun a => Fin.ext (by
    match a with | ⟨0, _⟩ => rfl | ⟨1, _⟩ => exact hr | ⟨2, _⟩ => exact hj)
  exact (congrArg (out0_5 x0 x1 x2 x3) e).trans (out5_apply x0 x1 x2 x3 _ r j)

/-- The same at any index of the block whose row and head coordinates are `r` and `d`. -/
theorem out4_at (x0 : Vec Ideal S1x512x64 .f32) (x1 x2 : Vec Ideal S1x2048x64 .f32) (x3 : Vec Ideal S1x512x2048 .i32)
    (y : S1x512x64.Idx) (r : Fin 512) (d : Fin 64) (hr : (y 1).val = r.val) (hd : (y 2).val = d.val) :
    out0_4 x0 x1 x2 x3 y = ∑ j : Fin 2048, soft (kscore x0 x1 x3 r) j * x2 (ix3 (0 : Fin 1) j d) := by
  have hy0 : (y 0).val < 1 := (y 0).isLt
  have e : y = ix3 (⟨(y 0).val, hy0⟩ : Fin 1) r d := funext fun a => Fin.ext (by
    match a with | ⟨0, _⟩ => rfl | ⟨1, _⟩ => exact hr | ⟨2, _⟩ => exact hd)
  exact (congrArg (out0_4 x0 x1 x2 x3) e).trans (out4_apply x0 x1 x2 x3 _ r d)

/-! ## The blocks tile the arrays -/

/-- An index of the attention array is in point `t`'s block iff each coordinate is in the block's range. -/
theorem mem_blk5 (t : Fin cfg0.N) (i : S64x2048x2048.Idx) :
    i ∈ ((cfg0.win 5).blk t).view.set ↔ ∀ a : Fin 3, win0_5.index t a * S1x512x2048.size a ≤ (i a).val ∧ (i a).val < win0_5.index t a * S1x512x2048.size a + S1x512x2048.size a := by
  show i ∈ ((View.whole main_v1_1).slice (win0_5.rect t)).set ↔ _
  rw [View.set_slice_whole, Rect.mem_set_unit]
  exact Iff.rfl

/-- An index of the output array is in point `t`'s block iff each coordinate is in the block's range. -/
theorem mem_blk4 (t : Fin cfg0.N) (i : S64x2048x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v1_0).slice (win0_4.rect t)).set ↔ _
  rw [View.set_slice_whole, Rect.mem_set_unit]
  exact Iff.rfl

/-- Every index of the attention array is in the block of the point of its batch entry and query tile. -/
theorem cover5 (i : S64x2048x2048.Idx) : ∃ t : Fin cfg0.N, (cfg0.win 5).flush t = true ∧ i ∈ ((cfg0.win 5).blk t).view.set := by
  have h0 : (i 0).val < 64 := (i 0).isLt
  have h1 : (i 1).val < 2048 := (i 1).isLt
  have h2 : (i 2).val < 2048 := (i 2).isLt
  have hN : cfg0.N = 256 := N_0
  let t : Fin cfg0.N := ⟨4 * (i 0).val + (i 1).val / 512, by rw [hN]; omega⟩
  have htv : t.val = 4 * (i 0).val + (i 1).val / 512 := rfl
  obtain ⟨-, -, -, -, -, -, -, -, -, -, -, -, -, -, -, e0, e1, e2⟩ := idx_facts t
  refine ⟨t, flush0_5 t, ?_⟩
  rw [mem_blk5]
  intro a
  match a with
  | ⟨0, _⟩ => show win0_5.index t 0 * 1 ≤ (i 0).val ∧ (i 0).val < win0_5.index t 0 * 1 + 1; omega
  | ⟨1, _⟩ => show win0_5.index t 1 * 512 ≤ (i 1).val ∧ (i 1).val < win0_5.index t 1 * 512 + 512; omega
  | ⟨2, _⟩ => show win0_5.index t 2 * 2048 ≤ (i 2).val ∧ (i 2).val < win0_5.index t 2 * 2048 + 2048; omega

/-- Every index of the output array is in the block of the point of its batch entry and query tile. -/
theorem cover4 (i : S64x2048x64.Idx) : ∃ t : Fin cfg0.N, (cfg0.win 4).flush t = true ∧ i ∈ ((cfg0.win 4).blk t).view.set := by
  have h0 : (i 0).val < 64 := (i 0).isLt
  have h1 : (i 1).val < 2048 := (i 1).isLt
  have h2 : (i 2).val < 64 := (i 2).isLt
  have hN : cfg0.N = 256 := N_0
  let t : Fin cfg0.N := ⟨4 * (i 0).val + (i 1).val / 512, by rw [hN]; omega⟩
  have htv : t.val = 4 * (i 0).val + (i 1).val / 512 := rfl
  obtain ⟨-, -, -, -, -, -, -, -, -, -, -, -, e0, e1, e2, -⟩ := idx_facts t
  refine ⟨t, flush0_4 t, ?_⟩
  rw [mem_blk4]
  intro a
  match a with
  | ⟨0, _⟩ => show win0_4.index t 0 * 1 ≤ (i 0).val ∧ (i 0).val < win0_4.index t 0 * 1 + 1; omega
  | ⟨1, _⟩ => show win0_4.index t 1 * 512 ≤ (i 1).val ∧ (i 1).val < win0_4.index t 1 * 512 + 512; omega
  | ⟨2, _⟩ => show win0_4.index t 2 * 64 ≤ (i 2).val ∧ (i 2).val < win0_4.index t 2 * 64 + 64; omega

/-! ## What a point writes back is its block of the arrays' function -/

section Real

variable (hQ : ∀ c i, ∃ x : ℝ, Qa m c i = (x : EReal)) (hK : ∀ c i, ∃ x : ℝ, Ka m c i = (x : EReal))
include hQ hK

/-- The score row of block row `r` at point `t` is the arrays' score row of batch entry `t / 4`, query row
    `512 · (t % 4) + r`. -/
theorem kscore_iblk (c : Dev nD) (t : Fin cfg0.N) (r : Fin 512) (b : Fin 64) (R : Fin 2048)
    (hb : b.val = t.val / 4) (hR : R.val = 512 * (t.val % 4) + r.val) :
    kscore (iblk m c 0 t) (iblk m c 1 t) (iblk m c 3 t) r = score (Qa m c) (Ka m c) (Ma m c) b R :=
  kscore_eq_score _ _ _ _ _ _ (hQ c) (hK c) b r R
    (fun d => iblk0_apply m c t _ _ hb hR rfl)
    (fun j d => iblk1_apply m c t _ _ hb rfl rfl)
    (fun j => iblk3_apply m c t _ _ hb hR rfl)

/-- WHAT POINT `t` WRITES BACK to the attention array is block `t` of the attention weights. -/
theorem flushed5_eq (c : Dev nD) (t : Fin cfg0.N) :
    (dats m 0 c).flushed 5 t = ((cfg0.win 5).blk t).view.read (Elt Ideal) (attn (Qa m c) (Ka m c) (Ma m c)) := by
  rw [flushed5]
  obtain ⟨-, -, -, -, -, -, -, -, -, -, -, -, -, -, -, e0, e1, e2⟩ := idx_facts t
  funext y
  have hy0 : (y 0).val < 1 := (y 0).isLt
  have hy1 : (y 1).val < 512 := (y 1).isLt
  have hy2 : (y 2).val < 2048 := (y 2).isLt
  have ht : t.val < 256 := by have h := t.isLt; have hN : cfg0.N = 256 := N_0; omega
  show out0_5 (iblk m c 0 t) (iblk m c 1 t) (iblk m c 2 t) (iblk m c 3 t) y = attn (Qa m c) (Ka m c) (Ma m c) (((cfg0.win 5).blk t).view.emb y)
  have hi : ((cfg0.win 5).blk t).view.emb y
      = ix3 (⟨t.val / 4, by omega⟩ : Fin 64) (⟨512 * (t.val % 4) + (y 1).val, by omega⟩ : Fin 2048) (⟨(y 2).val, hy2⟩ : Fin 2048) :=
    funext fun a => Fin.ext (by
      match a with
      | ⟨0, _⟩ => show win0_5.index t 0 * 1 + 1 * (y 0).val = t.val / 4; omega
      | ⟨1, _⟩ => show win0_5.index t 1 * 512 + 1 * (y 1).val = 512 * (t.val % 4) + (y 1).val; omega
      | ⟨2, _⟩ => show win0_5.index t 2 * 2048 + 1 * (y 2).val = (y 2).val; omega)
  rw [hi]
  refine (out5_at _ _ _ _ y (⟨(y 1).val, hy1⟩ : Fin 512) (⟨(y 2).val, hy2⟩ : Fin 2048) rfl rfl).trans ?_
  show _ = soft (score (Qa m c) (Ka m c) (Ma m c) _ _) _
  rw [kscore_iblk m hQ hK c t (⟨(y 1).val, hy1⟩ : Fin 512) (⟨t.val / 4, by omega⟩ : Fin 64) (⟨512 * (t.val % 4) + (y 1).val, by omega⟩ : Fin 2048) rfl rfl]

/-- WHAT POINT `t` WRITES BACK to the output array is block `t` of the output. -/
theorem flushed4_eq (c : Dev nD) (t : Fin cfg0.N) :
    (dats m 0 c).flushed 4 t = ((cfg0.win 4).blk t).view.read (Elt Ideal) (outp (Qa m c) (Ka m c) (Wa m c) (Ma m c)) := by
  rw [flushed4]
  obtain ⟨-, -, -, -, -, -, -, -, -, -, -, -, e0, e1, e2, -⟩ := idx_facts t
  funext y
  have hy0 : (y 0).val < 1 := (y 0).isLt
  have hy1 : (y 1).val < 512 := (y 1).isLt
  have hy2 : (y 2).val < 64 := (y 2).isLt
  have ht : t.val < 256 := by have h := t.isLt; have hN : cfg0.N = 256 := N_0; omega
  show out0_4 (iblk m c 0 t) (iblk m c 1 t) (iblk m c 2 t) (iblk m c 3 t) y = outp (Qa m c) (Ka m c) (Wa m c) (Ma m c) (((cfg0.win 4).blk t).view.emb y)
  have hi : ((cfg0.win 4).blk t).view.emb y
      = ix3 (⟨t.val / 4, by omega⟩ : Fin 64) (⟨512 * (t.val % 4) + (y 1).val, by omega⟩ : Fin 2048) (⟨(y 2).val, hy2⟩ : Fin 64) :=
    funext fun a => Fin.ext (by
      match a with
      | ⟨0, _⟩ => show win0_4.index t 0 * 1 + 1 * (y 0).val = t.val / 4; omega
      | ⟨1, _⟩ => show win0_4.index t 1 * 512 + 1 * (y 1).val = 512 * (t.val % 4) + (y 1).val; omega
      | ⟨2, _⟩ => show win0_4.index t 2 * 64 + 1 * (y 2).val = (y 2).val; omega)
  rw [hi]
  refine (out4_at _ _ _ _ y (⟨(y 1).val, hy1⟩ : Fin 512) (⟨(y 2).val, hy2⟩ : Fin 64) rfl rfl).trans ?_
  show _ = ∑ j : Fin 2048, soft (score (Qa m c) (Ka m c) (Ma m c) _ _) j * Wa m c (ix3 _ j _)
  rw [kscore_iblk m hQ hK c t (⟨(y 1).val, hy1⟩ : Fin 512) (⟨t.val / 4, by omega⟩ : Fin 64) (⟨512 * (t.val % 4) + (y 1).val, by omega⟩ : Fin 2048) rfl rfl]
  refine Finset.sum_congr rfl fun j _ => congrArg _ ?_
  exact iblk2_apply m c t _ _ rfl rfl rfl

/-! ## The two arrays after the run -/

/-- The attention array ends holding the attention weights of the arguments. -/
theorem final5 (c : Dev nD) : (dats m 0 c).arrAt 5 cfg0.N = attn (Qa m c) (Ka m c) (Ma m c) :=
  (dats m 0 c).arrAt_eq_of_cover 5 _ (fun t _ => flushed5_eq m hQ hK c t) cover5

/-- The output array ends holding the output of the arguments. -/
theorem final4 (c : Dev nD) : (dats m 0 c).arrAt 4 cfg0.N = outp (Qa m c) (Ka m c) (Wa m c) (Ma m c) :=
  (dats m 0 c).arrAt_eq_of_cover 4 _ (fun t _ => flushed4_eq m hQ hK c t) cover4

/-- The kernel's run, read: both result arrays at their functions of the arguments, the arguments unchanged. -/
theorem run : θ_run defs (onTc (τ := τ) (main (F := Ideal))) ⟨m, fun _ => 0, ρ⟩ fun r => ∀ c : Dev nD,
      r.2.mem ((c : Thread nD τ).loc main_v1_0) = outp (Qa m c) (Ka m c) (Wa m c) (Ma m c)
      ∧ r.2.mem ((c : Thread nD τ).loc main_v1_1) = attn (Qa m c) (Ka m c) (Ma m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m hQ hK c), (h c).2.1.trans (final5 m hQ hK c), (h c).2.2⟩)
    (run_blocks m ρ)

end Real

end Cert.KernelIdeal.ArrValue

end
-- ==== Proof.lean ====
/-
  Masked scaled-dot-product attention: the kernel against its reference, on the extended reals.

  Both programs compute, for every batch entry and query row, the softmax of the row of scores — the dot products of the
  query row with the key rows over the 64 head coordinates, scaled by `1/8`, the fill value where the mask bit is set —
  and the weights' combination of the value rows (`Proof/Softmax.lean`: `attn`, `outp`). The kernel scales the queries
  before the dot product and works on blocks of 512 query rows, one batch entry at a time; the reference divides the
  dot product by 8 and works on the whole arrays. For finite queries and keys the two scalings agree, and that is the
  one place the precondition is used (`Proof/Finite.lean`); rounding to a shorter float format, the order of a sum and
  the tiling make no difference on the extended reals.

  The kernel's two result arrays after its run are `outp` and `attn` of the argument arrays (`Proof/KernelArray.lean`,
  over `Proof/KernelRow.lean`); the reference's two results are the same functions (`Proof/RefAttn.lean`). The three
  frames are the generated ones, and the idealization rewrote nothing.
-/
import proofs.«162747_j69226282876939_2_alg».proof.Defs
import proofs.«162747_j69226282876939_2_alg».proof.Proof.Gen.Kernel
import proofs.«162747_j69226282876939_2_alg».proof.Proof.Gen.Kernel.Skeleton
import proofs.«162747_j69226282876939_2_alg».proof.Proof.Gen.Kernel.Launch
import proofs.«162747_j69226282876939_2_alg».proof.Proof.Gen.Kernel.Points
import proofs.«162747_j69226282876939_2_alg».proof.Proof.Gen.Kernel.Frame
import proofs.«162747_j69226282876939_2_alg».proof.Proof.Gen.KernelIdeal
import proofs.«162747_j69226282876939_2_alg».proof.Proof.Gen.KernelIdeal.Skeleton
import proofs.«162747_j69226282876939_2_alg».proof.Proof.Gen.KernelIdeal.Launch
import proofs.«162747_j69226282876939_2_alg».proof.Proof.Gen.KernelIdeal.Points
import proofs.«162747_j69226282876939_2_alg».proof.Proof.Gen.KernelIdeal.Frame
import proofs.«162747_j69226282876939_2_alg».proof.Proof.Gen.ReferenceIdeal
import proofs.«162747_j69226282876939_2_alg».proof.Proof.Gen.Pre_finite_inputs
import proofs.«162747_j69226282876939_2_alg».proof.Proof.Gen.KernelIdeal.Value
import proofs.«162747_j69226282876939_2_alg».proof.Proof.Gen.ReferenceIdeal.Run
import proofs.«162747_j69226282876939_2_alg».proof.Proof.Gen.ReferenceIdeal.Read
import proofs.«162747_j69226282876939_2_alg».proof.Proof.Finite
import proofs.«162747_j69226282876939_2_alg».proof.Proof.RefAttn
import proofs.«162747_j69226282876939_2_alg».proof.Proof.KernelArray
import Idealize.ShloMosaic.Adequacy
import Idealize.ShloMosaic.Init

noncomputable section

namespace Cert.Proof

open Idealize.ShloMosaic Idealize.ShloMosaic.TcCoe Idealize.SL.Sem Cert.Attn

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the output and the attention weights of the argument arrays. Under the precondition the
    queries and keys are real numbers, so the kernel's arrays are `outp` and `attn` of its arguments; the reference's
    results are `outp` and `attn` of its own, which agree with the kernel's. -/
theorem algebraic : Cert.algebraic_KernelIdeal_ReferenceIdeal := by
  intro m ρ m' ρ' hpre hagree
  have hfin := fun c => Cert.Pre_finite_inputs.Finite.reals_of_pre _ _ _ _ (hpre c)
  refine ⟨_, _, Cert.KernelIdeal.ArrValue.run m ρ (fun c => (hfin c).1) (fun c => (hfin c).2), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v15_eq _ _ _ _).trans ((Cert.ReferenceIdeal.RefValue.v15_eq _ _ _ _).trans ?_)
    rw [(hagree c).1, (hagree c).2.1, (hagree c).2.2.1, (hagree c).2.2.2]
  · refine (Cert.ReferenceIdeal.Read.val_main_v14_eq _ _ _).trans ((Cert.ReferenceIdeal.RefValue.v14_eq _ _ _).trans ?_)
    rw [(hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
